-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S1024x2048 : Shape := ⟨2, ![1024, 2048]⟩
abbrev S2048x2048 : Shape := ⟨2, ![2048, 2048]⟩
abbrev S2048 : Shape := ⟨1, ![2048]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x2048 .f32) (main_arg8 : FVec F S2048 .f32) (main_arg9 : FVec F S1024x2048 .f32) (main_arg10 : FVec F S1024 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S2048x2048 .f32) (main_arg5 : FVec F S2048 .f32) (main_arg6 : FVec F S1024x2048 .f32) (main_arg7 : FVec F S2048x2048 .f32) (main_arg8 : FVec F S2048 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x2048 .f32) (main_arg2 : FVec F S4096x2048 .f32) (main_arg3 : FVec F S1024x2048 .f32) (main_arg4 : FVec F S2048x2048 .f32) (main_arg5 : FVec F S2048 .f32) (main_arg6 : FVec F S1024x2048 .f32) (main_arg7 : FVec F S2048x2048 .f32) (main_arg8 : FVec F S2048 .f32) (main_arg9 : FVec F S1024x2048 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S2048x2048 : Shape := ⟨2, ![2048, 2048]⟩
abbrev S2048 : Shape := ⟨1, ![2048]⟩
abbrev S1024 : Shape := ⟨1, ![1024]⟩
abbrev S1024x4096 : Shape := ⟨2, ![1024, 4096]⟩
abbrev S2048x4096 : Shape := ⟨2, ![2048, 4096]⟩
abbrev S4096 : Shape := ⟨1, ![4096]⟩
abbrev S1x4096 : Shape := ⟨2, ![1, 4096]⟩
abbrev S1x1024 : Shape := ⟨2, ![1, 1024]⟩
abbrev S128x1024 : Shape := ⟨2, ![128, 1024]⟩
abbrev S128x2048 : Shape := ⟨2, ![128, 2048]⟩
abbrev S128x4096 : Shape := ⟨2, ![128, 4096]⟩

abbrev nBuf : Space → Nat
  | .hbm => 22
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S1024x2048, .f32⟩
  | .hbm, ⟨4, _⟩ => ⟨S2048x2048, .f32⟩
  | .hbm, ⟨5, _⟩ => ⟨S2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S1024x2048, .f32⟩
  | .hbm, ⟨10, _⟩ => ⟨S1024, .f32⟩
  | .hbm, ⟨11, _⟩ => ⟨S1024x4096, .f32⟩
  | .hbm, ⟨12, _⟩ => ⟨S1024x4096, .bf16⟩
  | .hbm, ⟨13, _⟩ => ⟨S2048x4096, .f32⟩
  | .hbm, ⟨14, _⟩ => ⟨S2048x4096, .bf16⟩
  | .hbm, ⟨15, _⟩ => ⟨S4096, .f32⟩
  | .hbm, ⟨16, _⟩ => ⟨S1x4096, .f32⟩
  | .hbm, ⟨17, _⟩ => ⟨S1024x2048, .bf16⟩
  | .hbm, ⟨18, _⟩ => ⟨S1x1024, .f32⟩
  | .hbm, ⟨19, _⟩ => ⟨S4096x1024, .f32⟩
  | .hbm, ⟨20, _⟩ => ⟨S4096x2048, .f32⟩
  | .hbm, ⟨21, _⟩ => ⟨S4096x2048, .f32⟩
  | .local _ .vmem, ⟨0, _⟩ => ⟨S128x1024, .f32⟩
  | .local _ .vmem, ⟨1, _⟩ => ⟨S128x1024, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1024x4096, .bf16⟩
  | .local _ .vmem, ⟨7, _⟩ => ⟨S2048x4096, .bf16⟩
  | .local _ .vmem, ⟨8, _⟩ => ⟨S1x4096, .f32⟩
  | .local _ .vmem, ⟨9, _⟩ => ⟨S1024x2048, .bf16⟩
  | .local _ .vmem, ⟨10, _⟩ => ⟨S1x1024, .f32⟩
  | .local _ .vmem, ⟨11, _⟩ => ⟨S128x1024, .f32⟩
  | .local _ .vmem, ⟨12, _⟩ => ⟨S128x1024, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S1024x2048_S1024x2048_S1024x4096_d1 : Shape.Concatenates [S1024x2048, S1024x2048] S1024x4096 1
  bitsLt_bf16_f32 : FTy.bits .bf16 < FTy.bits .f32
  concatenates_S2048x2048_S2048x2048_S2048x4096_d1 : Shape.Concatenates [S2048x2048, S2048x2048] S2048x4096 1
  concatenates_S2048_S2048_S4096_d0 : Shape.Concatenates [S2048, S2048] S4096 0
  bcast_S4096_S1x4096_1 : S4096.BroadcastsInDim S1x4096 (![1] : Fin 1 → Fin S1x4096.rank)
  bcast_S1024_S1x1024_1 : S1024.BroadcastsInDim S1x1024 (![1] : Fin 1 → Fin S1x1024.rank)
  inb_S128x1024_S128x1024_0_0 : ∀ a, (![0, 0] : Fin 2 → Nat) a + S128x1024.size a ≤ S128x1024.size a
  h_S128x1024 : 0 < S128x1024.numel
  inb_S128x2048_S128x2048_0_0 : ∀ a, (![0, 0] : Fin 2 → Nat) a + S128x2048.size a ≤ S128x2048.size a
  h_S128x2048 : 0 < S128x2048.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x4096_S128x4096 : S1x4096.Broadcasts S128x4096
  slices_S128x4096_o0_0_S128x2048 : S128x4096.Slices ![0, 0] S128x2048
  slices_S128x4096_o0_2048_S128x2048 : S128x4096.Slices ![0, 2048] S128x2048
  broadcasts_S1x1024_S128x1024 : S1x1024.Broadcasts S128x1024
  dot_S128x1024_S1024x4096_S128x4096_1_0_0_1_n_n_wf : DotDims.WF S128x1024 S1024x4096 S128x4096 [1] [0] [0] [1] [] []
  dot_S128x2048_S2048x4096_S128x4096_1_0_0_1_n_n_wf : DotDims.WF S128x2048 S2048x4096 S128x4096 [1] [0] [0] [1] [] []
  dot_S128x2048_S1024x2048_S128x1024_1_1_0_0_n_n_wf : DotDims.WF S128x2048 S1024x2048 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S4096x2048.size a
  hwx0_2 : ∀ i : grid0.Coords, EltTy.bits .f32 = 32 ∨ (Rect.block (s := S4096x2048) S128x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x4096.size a ≤ S2048x4096.size a
  hwx0_4 : ∀ i : grid0.Coords, EltTy.bits .bf16 = 32 ∨ (Rect.block (s := S2048x4096) S2048x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S4096x1024.size a
  hwx0_8 : ∀ i : grid0.Coords, EltTy.bits .f32 = 32 ∨ (Rect.block (s := S4096x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S4096x2048.size a
  hwx0_9 : ∀ i : grid0.Coords, EltTy.bits .f32 = 32 ∨ (Rect.block (s := S4096x2048) S128x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S4096x2048.size a
  hwx0_10 : ∀ i : grid0.Coords, EltTy.bits .f32 = 32 ∨ (Rect.block (s := S4096x2048) S128x2048.size (cc0_transform_10 i) (hinb0_10 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf
def dot_S128x2048_S1024x2048_S128x1024_1_1_0_0_n_n : DotDims S128x2048 S1024x2048 S128x1024 where
  lhsContracting := [1]
  rhsContracting := [1]
  lhsNonContracting := [0]
  rhsNonContracting := [0]
  lhsBatch := []
  rhsBatch := []
  wf := dot_S128x2048_S1024x2048_S128x1024_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S128x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_2) S128x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S1024x2048 : Shape := ⟨2, ![1024, 2048]⟩
abbrev S2048x2048 : Shape := ⟨2, ![2048, 2048]⟩
abbrev S2048 : Shape := ⟨1, ![2048]⟩
abbrev S1024 : Shape := ⟨1, ![1024]⟩
abbrev S1x2048 : Shape := ⟨2, ![1, 2048]⟩
abbrev S_ : Shape := ⟨0, ![]⟩
abbrev S2048x1024 : Shape := ⟨2, ![2048, 1024]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S1024x2048, .f32⟩
  | .hbm, ⟨4, _⟩ => ⟨S2048x2048, .f32⟩
  | .hbm, ⟨5, _⟩ => ⟨S2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S1024x2048, .f32⟩
  | .hbm, ⟨10, _⟩ => ⟨S1024, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S2048x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x2048_S4096x2048_1_0_0_1_n_n_wf : DotDims.WF S4096x1024 S1024x2048 S4096x2048 [1] [0] [0] [1] [] []
  dot_S4096x2048_S2048x2048_S4096x2048_1_0_0_1_n_n_wf : DotDims.WF S4096x2048 S2048x2048 S4096x2048 [1] [0] [0] [1] [] []
  dot_S4096x2048_S2048x1024_S4096x1024_1_0_0_1_n_n_wf : DotDims.WF S4096x2048 S2048x1024 S4096x1024 [1] [0] [0] [1] [] []

variable [Facts₀]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.RnnSpec.lean ====
/-
  One step of a gated recurrent cell, as three functions of its eleven argument arrays, entry by entry, on the
  extended reals.

  With x : [4096, 1024] the input, h, g : [4096, 2048] the hidden state and the old gate, and for each of the two
  branches an input weight [1024, 2048], a recurrent weight [2048, 2048] and a bias [2048]:

    pre r j     = (sum_k x r k * wx k j  +  sum_k h r k * wh k j) + b j          (one branch's pre-activation)
    gateNew r j = tanh (pre r j)                      with the gate branch's weights
    hidNew r j  = g r j * tanh (pre r j) + (1 - g r j) * h r j     with the candidate branch's weights
    outNew r q  = sum_j hidNew r j * lw q j + lb q    (the read-out contracts the hidden axis of lw : [1024, 2048])

  The grouping of the sums and products is the one written here; nothing is distributed or cancelled, so the
  functions make sense, and are compared, at every extended real. The constant one is kept as the f32 word of 1.0.
-/
import Idealize.ShloMosaic.PureOps.Ideal
import Idealize.ShloMosaic.Lib.ValueIdx

noncomputable section

namespace Cert.RnnSpec

open Idealize.ShloMosaic Idealize.ShloMosaic.ValueIdx
open scoped BigOperators

/-- A two-axis array of extended reals. -/
abbrev Mat (a b : ℕ) : Type := (⟨2, ![a, b]⟩ : Shape).Idx → EReal
/-- A one-axis array of extended reals. -/
abbrev Row (a : ℕ) : Type := (⟨1, ![a]⟩ : Shape).Idx → EReal

/-- One branch's pre-activation at batch row `r` and hidden unit `j`: the input's and the state's rows against
    column `j` of the two weights, added, then the bias. -/
def pre (x : Mat 4096 1024) (h : Mat 4096 2048) (wx : Mat 1024 2048) (wh : Mat 2048 2048) (b : Row 2048)
    (r : Fin 4096) (j : Fin 2048) : EReal :=
  ((∑ k : Fin 1024, x (ix2 r k) * wx (ix2 k j)) + ∑ k : Fin 2048, h (ix2 r k) * wh (ix2 k j)) + b (ix1 j)

/-- The new gate. -/
def gateNew (x : Mat 4096 1024) (h : Mat 4096 2048) (wgx : Mat 1024 2048) (wgh : Mat 2048 2048) (bg : Row 2048) :
    Mat 4096 2048 := fun i => Ideal.tanh (pre x h wgx wgh bg (i 0) (i 1))

/-- The new hidden state: the candidate and the old state mixed by the OLD gate. -/
def hidNew (x : Mat 4096 1024) (h g : Mat 4096 2048) (wxh : Mat 1024 2048) (whh : Mat 2048 2048) (bh : Row 2048) :
    Mat 4096 2048 := fun i =>
  g i * Ideal.tanh (pre x h wxh whh bh (i 0) (i 1)) + (Ideal.ofBits .f32 0x3F800000#32 - g i) * h i

/-- The read-out of the new hidden state. -/
def outNew (x : Mat 4096 1024) (h g : Mat 4096 2048) (wxh : Mat 1024 2048) (whh : Mat 2048 2048) (bh : Row 2048)
    (lw : Mat 1024 2048) (lb : Row 1024) : Mat 4096 1024 := fun i =>
  (∑ j : Fin 2048, hidNew x h g wxh whh bh (ix2 (i 0) j) * lw (ix2 (i 1) j)) + lb (ix1 (i 1))

end Cert.RnnSpec

end
-- ==== Proof.RefIsSpec.lean ====
/-
  The reference program computes the cell of RnnSpec: each of its three results, read one operation at a time at an
  index (r, j), is the specification's function there.

  The reference's two products per branch contract the second axis of x (or h) with the first of the weight; its bias is
  a row broadcast over the batch; its read-out transposes lw : [1024, 2048] and contracts the hidden axis, which reads
  lw at (q, j) again. Its tanh is the same function of an extended real as the kernel's.
-/
import proofs.«174306_j52493090291841_2_alg».proof.Proof.Gen.ReferenceIdeal.Read
import proofs.«174306_j52493090291841_2_alg».proof.Proof.RnnSpec

noncomputable section

namespace Cert.RefIsSpec

open Cert.ReferenceIdeal Cert.ReferenceIdeal.Gen Cert.ReferenceIdeal.Read Cert.RnnSpec
open Idealize.ShloMosaic Idealize.ShloMosaic.ValueIdx
open scoped BigOperators

/-! ## Where each operation reads its operands, in coordinates -/

section Indices
variable (r : Fin 4096) (j : Fin 2048) (q : Fin 1024)

theorem l0 (k : Fin 1024) : lidx_main_v0 (ix2 r j) k = ix2 r k :=
  funext fun a => by match a with | ⟨0, _⟩ => rfl | ⟨1, _⟩ => rfl
theorem r0 (k : Fin 1024) : ridx_main_v0 (ix2 r j) k = ix2 k j :=
  funext fun a => by match a with | ⟨0, _⟩ => rfl | ⟨1, _⟩ => rfl
theorem l1 (k : Fin 2048) : lidx_main_v1 (ix2 r j) k = ix2 r k :=
  funext fun a => by match a with | ⟨0, _⟩ => rfl | ⟨1, _⟩ => rfl
theorem r1 (k : Fin 2048) : ridx_main_v1 (ix2 r j) k = ix2 k j :=
  funext fun a => by match a with | ⟨0, _⟩ => rfl | ⟨1, _⟩ => rfl
theorem b4 : idx_main_v3 (idx_main_v4 (ix2 r j)) = ix1 j :=
  funext fun a => by match a with | ⟨0, _⟩ => rfl
theorem l7 (k : Fin 1024) : lidx_main_v7 (ix2 r j) k = ix2 r k :=
  funext fun a => by match a with | ⟨0, _⟩ => rfl | ⟨1, _⟩ => rfl
theorem r7 (k : Fin 1024) : ridx_main_v7 (ix2 r j) k = ix2 k j :=
  funext fun a => by match a with | ⟨0, _⟩ => rfl | ⟨1, _⟩ => rfl
theorem l8 (k : Fin 2048) : lidx_main_v8 (ix2 r j) k = ix2 r k :=
  funext fun a => by match a with | ⟨0, _⟩ => rfl | ⟨1, _⟩ => rfl
theorem r8 (k : Fin 2048) : ridx_main_v8 (ix2 r j) k = ix2 k j :=
  funext fun a => by match a with | ⟨0, _⟩ => rfl | ⟨1, _⟩ => rfl
theorem b11 : idx_main_v10 (idx_main_v11 (ix2 r j)) = ix1 j :=
  funext fun a => by match a with | ⟨0, _⟩ => rfl
theorem l20 (k : Fin 2048) : lidx_main_v20 (ix2 r q) k = ix2 r k :=
  funext fun a => by match a with | ⟨0, _⟩ => rfl | ⟨1, _⟩ => rfl
/-- The transposed read-out weight at (k, q) is the weight at (q, k). -/
theorem r20 (k : Fin 2048) : idx_main_v19 (ridx_main_v20 (ix2 r q) k) = ix2 q k :=
  funext fun a => by match a with | ⟨0, _⟩ => rfl | ⟨1, _⟩ => rfl
theorem b22 : idx_main_v21 (idx_main_v22 (ix2 r q)) = ix1 q :=
  funext fun a => by match a with | ⟨0, _⟩ => rfl

end Indices

/-! ## The three results -/

variable (x : Mat 4096 1024) (h g : Mat 4096 2048) (wxh wgx lw : Mat 1024 2048) (whh wgh : Mat 2048 2048)
  (bh bg : Row 2048) (lb : Row 1024)

/-- The reference's new gate. -/
theorem gate_eq : val_main_v6 (F := Ideal) x h wgx wgh bg = gateNew x h wgx wgh bg := by
  funext i
  obtain ⟨r, j, rfl⟩ : ∃ (r : Fin 4096) (j : Fin 2048), i = ix2 r j := ⟨i 0, i 1, eq_ix2 i⟩
  rw [val_main_v6_apply, val_main_v5_apply, val_main_v2_apply, val_main_v0_apply, val_main_v1_apply,
    val_main_v4_apply, val_main_v3_apply]
  simp only [l0, r0, l1, r1, b4]
  rfl

/-- The reference's new hidden state. -/
theorem hid_eq : val_main_v18 (F := Ideal) x h g wxh whh bh = hidNew x h g wxh whh bh := by
  funext i
  obtain ⟨r, j, rfl⟩ : ∃ (r : Fin 4096) (j : Fin 2048), i = ix2 r j := ⟨i 0, i 1, eq_ix2 i⟩
  rw [val_main_v18_apply, val_main_v14_apply, val_main_v13_apply, val_main_v12_apply, val_main_v9_apply,
    val_main_v7_apply, val_main_v8_apply, val_main_v11_apply, val_main_v10_apply, val_main_v17_apply,
    val_main_v16_apply, val_main_v15_apply, val_main_cst_apply]
  simp only [l7, r7, l8, r8, b11]
  rfl

/-- The reference's read-out. -/
theorem out_eq : val_main_v23 (F := Ideal) x h g wxh whh bh lw lb = outNew x h g wxh whh bh lw lb := by
  funext i
  obtain ⟨r, q, rfl⟩ : ∃ (r : Fin 4096) (q : Fin 1024), i = ix2 r q := ⟨i 0, i 1, eq_ix2 i⟩
  rw [val_main_v23_apply, val_main_v20_apply, val_main_v22_apply, val_main_v21_apply, hid_eq]
  simp only [val_main_v19_apply, l20, r20, b22]
  rfl

end Cert.RefIsSpec

end
-- ==== Proof.LibContract.lean ====
/-
  A contraction over ONE axis read as a sum over that axis's coordinate.

  For any dimension-number record whose contraction shape has rank one and extent `k`, the sum over the contraction
  index of the operands' products is the sum over `i : Fin k` of the products at the operand indices the caller names,
  provided the record's operand indices at a contraction index whose one coordinate is `i` are those. The matrix unit's
  product into a zero accumulator and the host's dot_general follow. Library imports only.
-/
import Idealize.ShloMosaic.PureOps.Ideal.Laws
import Idealize.ShloMosaic.Lib.ValueIdx

noncomputable section

namespace Cert.LibContract

open Idealize.ShloMosaic Idealize.ShloMosaic.ValueIdx
open scoped BigOperators

variable {sl sr so : Shape} (D : DotDims sl sr so) (k : ℕ) (hr : D.contr.rank = 1) (hs : D.contr.size ⟨0, by omega⟩ = k)

include hr hs

/-- The sum over the contraction index, re-indexed by the one coordinate. -/
theorem sum_contr1 (lhs : sl.Idx → EReal) (rhs : sr.Idx → EReal) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    (∑ c : D.contr.Idx, lhs (D.lhsIdx j c) * rhs (D.rhsIdx j c)) = ∑ i : Fin k, lhs (li i) * rhs (ri i) := by
  rw [← Equiv.sum_comp (contrEquiv1 D k hr hs).symm]
  refine Finset.sum_congr rfl fun i _ => ?_
  have hk := contrEquiv1_symm_val D k hr hs i
  rw [hl _ i hk, hrr _ i hk]

/-- The matrix unit's product into a zero accumulator at an output index. -/
theorem matmul_zero_apply {φ₁ φ₂ : FTy} (prec : Option ContractPrecision) (lhs : FVec Ideal sl φ₁) (rhs : FVec Ideal sr φ₂)
    (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.matmul D prec lhs rhs (constant so .f32 0x00000000#32) j = ∑ i : Fin k, lhs (li i) * rhs (ri i) :=
  (Ideal.matmul_constant_zero_apply D prec lhs rhs j).trans (sum_contr1 D k hr hs lhs rhs j li ri hl hrr)

/-- The host's dot_general at an output index. -/
theorem dotGeneral_apply {φ₁ φ₂ : FTy} (prec : Option ContractPrecision) (sched : HostSchedule) (lhs : FVec Ideal sl φ₁)
    (rhs : FVec Ideal sr φ₂) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.dotGeneral D prec sched lhs rhs j = ∑ i : Fin k, lhs (li i) * rhs (ri i) :=
  (Ideal.dotGeneral_apply D prec sched lhs rhs j).trans (sum_contr1 D k hr hs lhs rhs j li ri hl hrr)

end Cert.LibContract

end
-- ==== Proof.TileValues.lean ====
/-
  The kernel body's values on one batch tile, read at an entry, on the extended reals.

  A tile is 128 batch rows: x : [128, 1024], h, g : [128, 2048]. The weights are resident whole and arrive STACKED
  along their output axis, the gate branch in columns 0 .. 2047 and the candidate branch in columns 2048 .. 4095:
  wx : [1024, 4096], wh : [2048, 4096], b : [1, 4096]; the read-out weight lw : [1024, 2048] and bias lb : [1, 1024].

    logits p q = (sum_k x p k * wx k q + sum_k h p k * wh k q) + b 0 q          q in 0 .. 4095
    gate   p j = tanh (logits p j)                                              the left half
    hid    p j = g p j * tanh (logits p (2048 + j)) + (1 - g p j) * h p j       the right half
    out    p q = sum_j hid p j * lw q j + lb 0 q                                lw contracted along ITS hidden axis

  A change of float format is the identity on the extended reals, and the matrix unit's product into a zero accumulator
  is the plain sum over the contracted axis.
-/
import proofs.«174306_j52493090291841_2_alg».proof.Proof.Gen.KernelIdeal.Skeleton
import proofs.«174306_j52493090291841_2_alg».proof.Proof.LibContract
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open scoped BigOperators

variable (x : FVec Ideal S128x1024 .f32) (h g : FVec Ideal S128x2048 .f32) (wx : FVec Ideal S1024x4096 .bf16)
  (wh : FVec Ideal S2048x4096 .bf16) (b : FVec Ideal S1x4096 .f32) (lw : FVec Ideal S1024x2048 .bf16)
  (lb : FVec Ideal S1x1024 .f32)

/-- Row `p` of the input tile against column `q` of the stacked input weights. -/
theorem dot_x (p : Fin 128) (q : Fin 4096) :
    matmul dot_S128x1024_S1024x4096_S128x4096_1_0_0_1_n_n none (truncf .bf16 x bitsLt_bf16_f32)
        (shapeCast S1024x4096 wx shapeCasts_S1024x4096_S1024x4096) (constant (F := Ideal) S128x4096 .f32 0x00000000#32) (ix2 p q)
      = ∑ k : Fin 1024, x (ix2 p k) * wx (ix2 k q) := by
  rw [shapeCast_self]
  exact Cert.LibContract.matmul_zero_apply dot_S128x1024_S1024x4096_S128x4096_1_0_0_1_n_n 1024 rfl rfl none
    (truncf .bf16 x bitsLt_bf16_f32) wx (ix2 p q) (fun k => ix2 p k) (fun k => ix2 k q)
    (fun c i hc => funext fun a => Fin.ext (by
      match a with
      | ⟨0, _⟩ => rfl
      | ⟨1, _⟩ => exact (dot_S128x1024_S1024x4096_S128x4096_1_0_0_1_n_n.lhsIdx_val_of_single rfl _ c).trans hc))
    (fun c i hc => funext fun a => Fin.ext (by
      match a with
      | ⟨0, _⟩ => exact (dot_S128x1024_S1024x4096_S128x4096_1_0_0_1_n_n.rhsIdx_val_of_single rfl _ c).trans hc
      | ⟨1, _⟩ => rfl))

/-- Row `p` of the state tile against column `q` of the stacked recurrent weights. -/
theorem dot_h (p : Fin 128) (q : Fin 4096) :
    matmul dot_S128x2048_S2048x4096_S128x4096_1_0_0_1_n_n none (truncf .bf16 h bitsLt_bf16_f32)
        (shapeCast S2048x4096 wh shapeCasts_S2048x4096_S2048x4096) (constant (F := Ideal) S128x4096 .f32 0x00000000#32) (ix2 p q)
      = ∑ k : Fin 2048, h (ix2 p k) * wh (ix2 k q) := by
  rw [shapeCast_self]
  exact Cert.LibContract.matmul_zero_apply dot_S128x2048_S2048x4096_S128x4096_1_0_0_1_n_n 2048 rfl rfl none
    (truncf .bf16 h bitsLt_bf16_f32) wh (ix2 p q) (fun k => ix2 p k) (fun k => ix2 k q)
    (fun c i hc => funext fun a => Fin.ext (by
      match a with
      | ⟨0, _⟩ => rfl
      | ⟨1, _⟩ => exact (dot_S128x2048_S2048x4096_S128x4096_1_0_0_1_n_n.lhsIdx_val_of_single rfl _ c).trans hc))
    (fun c i hc => funext fun a => Fin.ext (by
      match a with
      | ⟨0, _⟩ => exact (dot_S128x2048_S2048x4096_S128x4096_1_0_0_1_n_n.rhsIdx_val_of_single rfl _ c).trans hc
      | ⟨1, _⟩ => rfl))

/-- Row `p` of a hidden tile against ROW `q` of the read-out weight: both contract their second axis. -/
theorem dot_out (hn : FVec Ideal S128x2048 .f32) (p : Fin 128) (q : Fin 1024) :
    matmul dot_S128x2048_S1024x2048_S128x1024_1_1_0_0_n_n none (truncf .bf16 hn bitsLt_bf16_f32)
        (shapeCast S1024x2048 lw shapeCasts_S1024x2048_S1024x2048) (constant (F := Ideal) S128x1024 .f32 0x00000000#32) (ix2 p q)
      = ∑ j : Fin 2048, hn (ix2 p j) * lw (ix2 q j) := by
  rw [shapeCast_self]
  exact Cert.LibContract.matmul_zero_apply dot_S128x2048_S1024x2048_S128x1024_1_1_0_0_n_n 2048 rfl rfl none
    (truncf .bf16 hn bitsLt_bf16_f32) lw (ix2 p q) (fun j => ix2 p j) (fun j => ix2 q j)
    (fun c i hc => funext fun a => Fin.ext (by
      match a with
      | ⟨0, _⟩ => rfl
      | ⟨1, _⟩ => exact (dot_S128x2048_S1024x2048_S128x1024_1_1_0_0_n_n.lhsIdx_val_of_single rfl _ c).trans hc))
    (fun c i hc => funext fun a => Fin.ext (by
      match a with
      | ⟨0, _⟩ => rfl
      | ⟨1, _⟩ => exact (dot_S128x2048_S1024x2048_S128x1024_1_1_0_0_n_n.rhsIdx_val_of_single rfl _ c).trans hc))

/-- The tile's pre-activations, both branches side by side. -/
theorem logits_apply (p : Fin 128) (q : Fin 4096) :
    k0_pay1 (F := Ideal) x h wx wh b (ix2 p q)
      = ((∑ k : Fin 1024, x (ix2 p k) * wx (ix2 k q)) + ∑ k : Fin 2048, h (ix2 p k) * wh (ix2 k q))
        + b (ix2 (0 : Fin 1) q) := by
  unfold k0_pay1
  rw [← dot_x x wx p q, ← dot_h h wh p q,
    ← broadcastTo_1b_ab_apply (a := 128) b broadcasts_S1x4096_S128x4096 p q]
  rw [shapeCast_self b]
  rfl

/-- The new gate on the tile: the left half of the pre-activations through tanh. -/
theorem gate_apply (p : Fin 128) (j : Fin 2048) (q : Fin 4096) (hq : q.val = 0 + j.val) :
    k0_pay2 (F := Ideal) x h wx wh b (ix2 p j) = Ideal.tanh (k0_pay1 (F := Ideal) x h wx wh b (ix2 p q)) := by
  unfold k0_pay2
  exact congrArg Ideal.tanh
    (slice2_axis1_apply 0 (k0_pay1 (F := Ideal) x h wx wh b) slices_S128x4096_o0_0_S128x2048 p j q hq)

/-- The new hidden state on the tile: the right half through tanh, mixed with the old state by the old gate. -/
theorem hid_apply (p : Fin 128) (j : Fin 2048) (q : Fin 4096) (hq : q.val = 2048 + j.val) :
    k0_pay3 (F := Ideal) x h g wx wh b (ix2 p j)
      = g (ix2 p j) * Ideal.tanh (k0_pay1 (F := Ideal) x h wx wh b (ix2 p q))
        + (Ideal.ofBits .f32 0x3F800000#32 - g (ix2 p j)) * h (ix2 p j) := by
  unfold k0_pay3
  rw [← slice2_axis1_apply 2048 (k0_pay1 (F := Ideal) x h wx wh b) slices_S128x4096_o0_2048_S128x2048 p j q hq]
  rfl

/-- The read-out on the tile. -/
theorem out_apply (p : Fin 128) (q : Fin 1024) :
    k0_pay4 (F := Ideal) x h g wx wh b lw lb (ix2 p q)
      = (∑ j : Fin 2048, k0_pay3 (F := Ideal) x h g wx wh b (ix2 p j) * lw (ix2 q j)) + lb (ix2 (0 : Fin 1) q) := by
  unfold k0_pay4
  rw [← dot_out lw (k0_pay3 (F := Ideal) x h g wx wh b) p q,
    ← broadcastTo_1b_ab_apply (a := 128) lb broadcasts_S1x1024_S128x1024 p q]
  rw [shapeCast_self lb]
  rfl

end Cert.KernelIdeal.Tile

end
-- ==== Proof.Stacking.lean ====
/-
  What it means for the arrays a batch tile is computed against to be the cell's argument arrays, stacked.

  The gate branch's input weight, recurrent weight and bias occupy columns 0 .. 2047 of three arrays with 4096 columns,
  the candidate branch's occupy columns 2048 .. 4095; the read-out weight is taken as it is; the two biases are single
  rows.
-/
import Idealize.ShloMosaic.Lib.ValueIdx
import proofs.«174306_j52493090291841_2_alg».proof.Proof.RnnSpec

noncomputable section

namespace Cert.Stacking

open Idealize.ShloMosaic Idealize.ShloMosaic.ValueIdx Cert.RnnSpec

/-- The arrays a tile is computed against are the argument arrays: the gate branch's weights and bias in columns
    0 .. 2047 of WX, WH, B, the candidate branch's in columns 2048 .. 4095; the read-out weight as it is; the two biases
    as single rows. -/
structure Stacked (WX : Mat 1024 4096) (WH : Mat 2048 4096) (B : Mat 1 4096) (LW : Mat 1024 2048) (LB : Mat 1 1024)
    (wxh wgx lw : Mat 1024 2048) (whh wgh : Mat 2048 2048) (bh bg : Row 2048) (lb : Row 1024) : Prop where
  wx_gate : ∀ (k : Fin 1024) (j : Fin 2048) (q : Fin 4096), q.val = 0 + j.val → WX (ix2 k q) = wgx (ix2 k j)
  wx_cand : ∀ (k : Fin 1024) (j : Fin 2048) (q : Fin 4096), q.val = 2048 + j.val → WX (ix2 k q) = wxh (ix2 k j)
  wh_gate : ∀ (k : Fin 2048) (j : Fin 2048) (q : Fin 4096), q.val = 0 + j.val → WH (ix2 k q) = wgh (ix2 k j)
  wh_cand : ∀ (k : Fin 2048) (j : Fin 2048) (q : Fin 4096), q.val = 2048 + j.val → WH (ix2 k q) = whh (ix2 k j)
  b_gate : ∀ (j : Fin 2048) (q : Fin 4096), q.val = 0 + j.val → B (ix2 (0 : Fin 1) q) = bg (ix1 j)
  b_cand : ∀ (j : Fin 2048) (q : Fin 4096), q.val = 2048 + j.val → B (ix2 (0 : Fin 1) q) = bh (ix1 j)
  lw_eq : ∀ (q : Fin 1024) (j : Fin 2048), LW (ix2 q j) = lw (ix2 q j)
  lb_eq : ∀ q : Fin 1024, LB (ix2 (0 : Fin 1) q) = lb (ix1 q)

end Cert.Stacking

end
-- ==== Proof.TileOfArray.lean ====
/-
  The body on a batch tile computes the cell's rows.

  Tile `t` (of 32) of an array with 4096 rows is its rows 128 t .. 128 t + 127. When the body is given tile `t` of
  x, h and g, and weights that are the argument weights stacked (Stacking.Stacked), what it stores at tile entry (p, j) is
  the cell's value at array entry (128 t + p, j): the gate branch sits in the left half of the stacked columns, the
  candidate branch in the right half, so the two halves of the tile's pre-activations are the two branches'
  pre-activations of that row, term by term.
-/
import proofs.«174306_j52493090291841_2_alg».proof.Proof.TileValues
import proofs.«174306_j52493090291841_2_alg».proof.Proof.Stacking
import proofs.«174306_j52493090291841_2_alg».proof.Proof.RnnSpec

noncomputable section

namespace Cert.KernelIdeal.Tile

open Cert.KernelIdeal Cert.KernelIdeal.Gen Cert.RnnSpec Cert.Stacking
open Idealize.ShloMosaic Idealize.ShloMosaic.ValueIdx
open scoped BigOperators

/-- The array row under row `p` of tile `t`. -/
def rowAt (t : ℕ) (ht : t < 32) (p : Fin 128) : Fin 4096 := ⟨t * 128 + p.val, by have := p.isLt; omega⟩

/-- Tile `t` of an array with 4096 rows. -/
def rowsOf (t : ℕ) (ht : t < 32) {n : ℕ} (A : Mat 4096 n) : Mat 128 n :=
  fun y => A (ix2 ⟨t * 128 + (y 0).val, by have := idx2_lt0 y; omega⟩ ⟨(y 1).val, idx2_lt1 y⟩)

theorem rowsOf_apply (t : ℕ) (ht : t < 32) {n : ℕ} (A : Mat 4096 n) (p : Fin 128) (k : Fin n) :
    rowsOf t ht A (ix2 p k) = A (ix2 (rowAt t ht p) k) := rfl

variable {WX : Mat 1024 4096} {WH : Mat 2048 4096} {B : Mat 1 4096} {LW : Mat 1024 2048} {LB : Mat 1 1024}
  {wxh wgx lw : Mat 1024 2048} {whh wgh : Mat 2048 2048} {bh bg : Row 2048} {lb : Row 1024}
  (hS : Stacked WX WH B LW LB wxh wgx lw whh wgh bh bg lb)
  (X : Mat 4096 1024) (H G : Mat 4096 2048) (t : ℕ) (ht : t < 32)

include hS

/-- A left-half pre-activation of the tile is the gate branch's pre-activation of the row. -/
theorem logits_gate (p : Fin 128) (j : Fin 2048) (q : Fin 4096) (hq : q.val = 0 + j.val) :
    k0_pay1 (F := Ideal) (rowsOf t ht X) (rowsOf t ht H) WX WH B (ix2 p q) = pre X H wgx wgh bg (rowAt t ht p) j := by
  refine (logits_apply (rowsOf t ht X) (rowsOf t ht H) WX WH B p q).trans ?_
  simp only [rowsOf_apply, hS.wx_gate _ j q hq, hS.wh_gate _ j q hq, hS.b_gate j q hq]
  rfl

/-- A right-half pre-activation of the tile is the candidate branch's pre-activation of the row. -/
theorem logits_cand (p : Fin 128) (j : Fin 2048) (q : Fin 4096) (hq : q.val = 2048 + j.val) :
    k0_pay1 (F := Ideal) (rowsOf t ht X) (rowsOf t ht H) WX WH B (ix2 p q) = pre X H wxh whh bh (rowAt t ht p) j := by
  refine (logits_apply (rowsOf t ht X) (rowsOf t ht H) WX WH B p q).trans ?_
  simp only [rowsOf_apply, hS.wx_cand _ j q hq, hS.wh_cand _ j q hq, hS.b_cand j q hq]
  rfl

/-- The tile's new gate is the cell's, at the tile's rows. -/
theorem gate_tile (p : Fin 128) (j : Fin 2048) :
    k0_pay2 (F := Ideal) (rowsOf t ht X) (rowsOf t ht H) WX WH B (ix2 p j)
      = gateNew X H wgx wgh bg (ix2 (rowAt t ht p) j) := by
  have hq : (⟨j.val, by have := j.isLt; omega⟩ : Fin 4096).val = 0 + j.val := (Nat.zero_add _).symm
  refine (gate_apply (rowsOf t ht X) (rowsOf t ht H) WX WH B p j _ hq).trans ?_
  rw [logits_gate hS X H t ht p j _ hq]
  rfl

/-- The tile's new hidden state is the cell's, at the tile's rows. -/
theorem hid_tile (p : Fin 128) (j : Fin 2048) :
    k0_pay3 (F := Ideal) (rowsOf t ht X) (rowsOf t ht H) (rowsOf t ht G) WX WH B (ix2 p j)
      = hidNew X H G wxh whh bh (ix2 (rowAt t ht p) j) := by
  have hq : (⟨2048 + j.val, by have := j.isLt; omega⟩ : Fin 4096).val = 2048 + j.val := rfl
  refine (hid_apply (rowsOf t ht X) (rowsOf t ht H) (rowsOf t ht G) WX WH B p j _ hq).trans ?_
  rw [logits_cand hS X H t ht p j _ hq]
  rfl

/-- The tile's read-out is the cell's, at the tile's rows. -/
theorem out_tile (p : Fin 128) (q : Fin 1024) :
    k0_pay4 (F := Ideal) (rowsOf t ht X) (rowsOf t ht H) (rowsOf t ht G) WX WH B LW LB (ix2 p q)
      = outNew X H G wxh whh bh lw lb (ix2 (rowAt t ht p) q) := by
  refine (out_apply (rowsOf t ht X) (rowsOf t ht H) (rowsOf t ht G) WX WH B LW LB p q).trans ?_
  simp only [hid_tile hS X H G t ht p, hS.lw_eq, hS.lb_eq]
  rfl

end Cert.KernelIdeal.Tile

end
-- ==== Proof.LibConcatPair.lean ====
/-
  Two arrays laid side by side along one axis, read at an entry.

  Two matrices [n, a] and [n, b] concatenated along their columns give [n, c], with c = a + b by the concatenation's own
  side condition: column q < a is column q of the first, column a + j is column j of the second. The same for two
  vectors of a and b entries concatenated into one of c. Library imports only.
-/
import Idealize.ShloMosaic.Lib.Pipeline.Value
import Idealize.ShloMosaic.Lib.ValueIdx

noncomputable section

namespace Cert.LibConcatPair

open Idealize.ShloMosaic Idealize.ShloMosaic.ValueIdx

variable {α : Type}

/-- A column of the left matrix: entry (k, q) of the pair, for q = j below the first extent, is entry (k, j) of the
    first. -/
theorem cols_left {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin a) (q : Fin c) (hq : q.val = j.val) :
    concatenate ⟨2, ![n, c]⟩ 1 [⟨⟨2, ![n, a]⟩, x⟩, ⟨⟨2, ![n, b]⟩, y⟩] hc (ix2 k q) = x (ix2 k j) :=
  concatenate_pair_apply_left 1 x y hc (ix2 k q) rfl (ix2 k j) (fun d => by
    match d with
    | ⟨0, _⟩ => rfl
    | ⟨1, _⟩ => exact hq.symm)

/-- A column of the right matrix: entry (k, q) of the pair, for q = a + j, is entry (k, j) of the second. -/
theorem cols_right {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin b) (q : Fin c) (hq : q.val = a + j.val) :
    concatenate ⟨2, ![n, c]⟩ 1 [⟨⟨2, ![n, a]⟩, x⟩, ⟨⟨2, ![n, b]⟩, y⟩] hc (ix2 k q) = y (ix2 k j) :=
  concatenate_pair_apply_right 1 x y hc (ix2 k q) rfl rfl (ix2 k j) (fun d hd => by
    match d, hd with
    | ⟨0, _⟩, _ => rfl
    | ⟨1, _⟩, hd => exact (hd (Fin.ext rfl)).elim) (by show j.val + a = q.val; omega)

/-- An entry of the left vector. -/
theorem vec_left {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin a) (q : Fin c) (hq : q.val = j.val) :
    concatenate ⟨1, ![c]⟩ 0 [⟨⟨1, ![a]⟩, x⟩, ⟨⟨1, ![b]⟩, y⟩] hc (ix1 q) = x (ix1 j) :=
  concatenate_pair_apply_left 0 x y hc (ix1 q) rfl (ix1 j) (fun d => by
    match d with
    | ⟨0, _⟩ => exact hq.symm)

/-- An entry of the right vector. -/
theorem vec_right {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin b) (q : Fin c) (hq : q.val = a + j.val) :
    concatenate ⟨1, ![c]⟩ 0 [⟨⟨1, ![a]⟩, x⟩, ⟨⟨1, ![b]⟩, y⟩] hc (ix1 q) = y (ix1 j) :=
  concatenate_pair_apply_right 0 x y hc (ix1 q) rfl rfl (ix1 j) (fun d hd => by
    match d, hd with
    | ⟨0, _⟩, hd => exact (hd (Fin.ext rfl)).elim) (by show j.val + a = q.val; omega)

end Cert.LibConcatPair

end
-- ==== Proof.HostArrays.lean ====
/-
  The arrays the region finds for its five resident operands are the cell's argument weights, stacked.

  Before the region the host lays the gate branch's and the candidate branch's input weights side by side (columns
  0 .. 2047 and 2048 .. 4095 of a [1024, 4096] array), does the same with the recurrent weights and with the two biases
  (then a row [1, 4096]), and passes the read-out weight and its bias (as a row [1, 1024]) on. The changes of float format
  in between are the identity on the extended reals.
-/
import proofs.«174306_j52493090291841_2_alg».proof.Proof.Gen.KernelIdeal.Frame
import proofs.«174306_j52493090291841_2_alg».proof.Proof.Stacking
import proofs.«174306_j52493090291841_2_alg».proof.Proof.LibConcatPair
import Idealize.ShloMosaic.Lib.StableHlo.Run
import Idealize.ShloMosaic.Lib.Pipeline.Value

noncomputable section

namespace Cert.KernelIdeal.HostArrays

open Cert.KernelIdeal Cert.KernelIdeal.Gen Cert.RnnSpec Cert.Stacking Cert.LibConcatPair
open Idealize.ShloMosaic Idealize.ShloMosaic.ValueIdx Idealize.ShloMosaic.TcCoe Idealize.SL.Sem Idealize.ShloMosaic.StableHlo

variable (m : (ℓ : Loc nD τ sig) → Buf (Elt Ideal) ℓ) (c : Dev nD)

/-- The stacked input weights, as the host wrote them. -/
theorem V_wx : @Eq (S1024x4096.Idx → EReal) (V m c main_v1)
    (truncf (F := Ideal) .bf16 (concatenate S1024x4096 1 [⟨S1024x2048, (m ((c : Thread nD τ).loc main_arg6))⟩, ⟨S1024x2048, (m ((c : Thread nD τ).loc main_arg3))⟩]
        concatenates_S1024x2048_S1024x2048_S1024x4096_d1) bitsLt_bf16_f32) := by
  dsimp only [V, hostOps0]; after_results <;> rfl

/-- The stacked recurrent weights. -/
theorem V_wh : @Eq (S2048x4096.Idx → EReal) (V m c main_v3)
    (truncf (F := Ideal) .bf16 (concatenate S2048x4096 1 [⟨S2048x2048, (m ((c : Thread nD τ).loc main_arg7))⟩, ⟨S2048x2048, (m ((c : Thread nD τ).loc main_arg4))⟩]
        concatenates_S2048x2048_S2048x2048_S2048x4096_d1) bitsLt_bf16_f32) := by
  dsimp only [V, hostOps0]; after_results <;> rfl

/-- The stacked biases, as one row. -/
theorem V_b : @Eq (S1x4096.Idx → EReal) (V m c main_v5)
    (broadcastInDim S1x4096 ![1] bcast_S4096_S1x4096_1 (concatenate S4096 0 [⟨S2048, (m ((c : Thread nD τ).loc main_arg8))⟩, ⟨S2048, (m ((c : Thread nD τ).loc main_arg5))⟩]
        concatenates_S2048_S2048_S4096_d0)) := by
  dsimp only [V, hostOps0]; after_results <;> rfl

/-- The read-out weight. -/
theorem V_lw : @Eq (S1024x2048.Idx → EReal) (V m c main_v6)
    (truncf (F := Ideal) .bf16 (m ((c : Thread nD τ).loc main_arg9)) bitsLt_bf16_f32) := by
  dsimp only [V, hostOps0]; after_results <;> rfl

/-- The read-out bias, as one row. -/
theorem V_lb : @Eq (S1x1024.Idx → EReal) (V m c main_v7)
    (broadcastInDim S1x1024 ![1] bcast_S1024_S1x1024_1 (m ((c : Thread nD τ).loc main_arg10))) := by
  dsimp only [V, hostOps0]; after_results <;> rfl

/-- The one row of the stacked biases at column `q` is the stacked vector at `q`. -/
theorem b_row (v : S4096.Idx → EReal) (q : Fin 4096) :
    broadcastInDim S1x4096 ![1] bcast_S4096_S1x4096_1 v (ix2 (0 : Fin 1) q) = v (ix1 q) :=
  broadcastInDim_apply _ bcast_S4096_S1x4096_1 v (ix2 (0 : Fin 1) q) (ix1 q) (fun a => match a with
    | ⟨0, _⟩ => by show q.val = if (4096 : Nat) = 1 then 0 else q.val; rw [if_neg (by decide)])

/-- The one row of the read-out bias at column `q` is the bias at `q`. -/
theorem lb_row (v : S1024.Idx → EReal) (q : Fin 1024) :
    broadcastInDim S1x1024 ![1] bcast_S1024_S1x1024_1 v (ix2 (0 : Fin 1) q) = v (ix1 q) :=
  broadcastInDim_apply _ bcast_S1024_S1x1024_1 v (ix2 (0 : Fin 1) q) (ix1 q) (fun a => match a with
    | ⟨0, _⟩ => by show q.val = if (1024 : Nat) = 1 then 0 else q.val; rw [if_neg (by decide)])

/-- What the region finds is the argument weights, stacked. -/
theorem stacked : Stacked (V m c main_v1) (V m c main_v3) (V m c main_v5) (V m c main_v6) (V m c main_v7)
    (m ((c : Thread nD τ).loc main_arg3)) (m ((c : Thread nD τ).loc main_arg6)) (m ((c : Thread nD τ).loc main_arg9))
    (m ((c : Thread nD τ).loc main_arg4)) (m ((c : Thread nD τ).loc main_arg7))
    (m ((c : Thread nD τ).loc main_arg5)) (m ((c : Thread nD τ).loc main_arg8)) (m ((c : Thread nD τ).loc main_arg10)) where
  wx_gate k j q hq := (congrFun (V_wx m c) (ix2 k q)).trans
    (cols_left (n := 1024) _ _ concatenates_S1024x2048_S1024x2048_S1024x4096_d1 k j q (hq.trans (Nat.zero_add _)))
  wx_cand k j q hq := (congrFun (V_wx m c) (ix2 k q)).trans
    (cols_right (n := 1024) _ _ concatenates_S1024x2048_S1024x2048_S1024x4096_d1 k j q hq)
  wh_gate k j q hq := (congrFun (V_wh m c) (ix2 k q)).trans
    (cols_left (n := 2048) _ _ concatenates_S2048x2048_S2048x2048_S2048x4096_d1 k j q (hq.trans (Nat.zero_add _)))
  wh_cand k j q hq := (congrFun (V_wh m c) (ix2 k q)).trans
    (cols_right (n := 2048) _ _ concatenates_S2048x2048_S2048x2048_S2048x4096_d1 k j q hq)
  b_gate j q hq := (congrFun (V_b m c) (ix2 (0 : Fin 1) q)).trans
    ((b_row _ q).trans (vec_left _ _ concatenates_S2048_S2048_S4096_d0 j q (hq.trans (Nat.zero_add _))))
  b_cand j q hq := (congrFun (V_b m c) (ix2 (0 : Fin 1) q)).trans
    ((b_row _ q).trans (vec_right _ _ concatenates_S2048_S2048_S4096_d0 j q hq))
  lw_eq q j := congrFun (V_lw m c) (ix2 q j)
  lb_eq q := (congrFun (V_lb m c) (ix2 (0 : Fin 1) q)).trans (lb_row _ q)

end Cert.KernelIdeal.HostArrays

end
-- ==== Proof.WholeArrays.lean ====
/-
  From tiles to arrays: after the run the kernel's three result arrays are the cell's three functions of the
  argument arrays.

  The grid has 32 points. At point t the three batch-tiled inputs (x, h, g) and the three outputs move with t: their
  block is rows 128 t .. 128 t + 127, all columns; the five resident operands stay at block (0, 0), the whole array. So
  the body at point t sees tile t of x, h, g and the stacked weights, and what it stores is (TileOfArray) the cell's
  rows 128 t .. 128 t + 127. Those are exactly the rows point t writes back, and every row belongs to one point, so the
  arrays end holding the cell's functions everywhere.
-/
import proofs.«174306_j52493090291841_2_alg».proof.Proof.Gen.KernelIdeal.Value
import proofs.«174306_j52493090291841_2_alg».proof.Proof.TileOfArray
import proofs.«174306_j52493090291841_2_alg».proof.Proof.HostArrays

noncomputable section

namespace Cert.KernelIdeal.Whole

open Cert.KernelIdeal Cert.KernelIdeal.Gen Cert.KernelIdeal.Tile Cert.KernelIdeal.HostArrays Cert.RnnSpec Cert.Stacking
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem lt32 (t : Fin cfg0.N) : t.val < 32 := lt_of_lt_of_eq t.isLt N_0

/-! ## The printed index maps, decided over the 32 points -/

theorem idx_w0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_w1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_w2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_w3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_w4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_w5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_w6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_w7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_w8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx_w9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx_w10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-! ## A block read off an array -/

/-- Point `t`'s block of the input window is tile `t` of the array. -/
theorem read_x (t : Fin cfg0.N) (A : Mat 4096 1024) :
    ((cfg0.win 0).blk t).view.read (Elt Ideal) A = rowsOf t.val (lt32 t) A := by
  funext y
  show A (((cfg0.win 0).blk t).view.emb y) = A _
  refine congrArg A (funext fun a => Fin.ext ?_)
  obtain ⟨e0, e1⟩ := idx_w0 t
  match a with
  | ⟨0, _⟩ => show win0_0.index t (0 : Fin 2) * 128 + 1 * (y 0).val = t.val * 128 + (y 0).val; rw [e0]; omega
  | ⟨1, _⟩ => show win0_0.index t (1 : Fin 2) * 1024 + 1 * (y 1).val = (y 1).val; rw [e1]; omega

/-- Point `t`'s block of the state window is tile `t` of the array. -/
theorem read_h (t : Fin cfg0.N) (A : Mat 4096 2048) :
    ((cfg0.win 1).blk t).view.read (Elt Ideal) A = rowsOf t.val (lt32 t) A := by
  funext y
  show A (((cfg0.win 1).blk t).view.emb y) = A _
  refine congrArg A (funext fun a => Fin.ext ?_)
  obtain ⟨e0, e1⟩ := idx_w1 t
  match a with
  | ⟨0, _⟩ => show win0_1.index t (0 : Fin 2) * 128 + 1 * (y 0).val = t.val * 128 + (y 0).val; rw [e0]; omega
  | ⟨1, _⟩ => show win0_1.index t (1 : Fin 2) * 2048 + 1 * (y 1).val = (y 1).val; rw [e1]; omega

/-- Point `t`'s block of the old gate's window is tile `t` of the array. -/
theorem read_g (t : Fin cfg0.N) (A : Mat 4096 2048) :
    ((cfg0.win 2).blk t).view.read (Elt Ideal) A = rowsOf t.val (lt32 t) A := by
  funext y
  show A (((cfg0.win 2).blk t).view.emb y) = A _
  refine congrArg A (funext fun a => Fin.ext ?_)
  obtain ⟨e0, e1⟩ := idx_w2 t
  match a with
  | ⟨0, _⟩ => show win0_2.index t (0 : Fin 2) * 128 + 1 * (y 0).val = t.val * 128 + (y 0).val; rw [e0]; omega
  | ⟨1, _⟩ => show win0_2.index t (1 : Fin 2) * 2048 + 1 * (y 1).val = (y 1).val; rw [e1]; omega

/-- The stacked input weights' block is the whole array at every point. -/
theorem read_wx (t : Fin cfg0.N) (A : Mat 1024 4096) :
    ((cfg0.win 3).blk t).view.read (Elt Ideal) A = A := by
  funext y
  show A (((cfg0.win 3).blk t).view.emb y) = A y
  refine congrArg A (funext fun a => Fin.ext ?_)
  obtain ⟨e0, e1⟩ := idx_w3 t
  match a with
  | ⟨0, _⟩ => show win0_3.index t (0 : Fin 2) * 1024 + 1 * (y 0).val = (y 0).val; rw [e0]; omega
  | ⟨1, _⟩ => show win0_3.index t (1 : Fin 2) * 4096 + 1 * (y 1).val = (y 1).val; rw [e1]; omega

/-- The stacked recurrent weights' block is the whole array at every point. -/
theorem read_wh (t : Fin cfg0.N) (A : Mat 2048 4096) :
    ((cfg0.win 4).blk t).view.read (Elt Ideal) A = A := by
  funext y
  show A (((cfg0.win 4).blk t).view.emb y) = A y
  refine congrArg A (funext fun a => Fin.ext ?_)
  obtain ⟨e0, e1⟩ := idx_w4 t
  match a with
  | ⟨0, _⟩ => show win0_4.index t (0 : Fin 2) * 2048 + 1 * (y 0).val = (y 0).val; rw [e0]; omega
  | ⟨1, _⟩ => show win0_4.index t (1 : Fin 2) * 4096 + 1 * (y 1).val = (y 1).val; rw [e1]; omega

/-- The stacked biases' block is the whole row at every point. -/
theorem read_b (t : Fin cfg0.N) (A : Mat 1 4096) :
    ((cfg0.win 5).blk t).view.read (Elt Ideal) A = A := by
  funext y
  show A (((cfg0.win 5).blk t).view.emb y) = A y
  refine congrArg A (funext fun a => Fin.ext ?_)
  obtain ⟨e0, e1⟩ := idx_w5 t
  match a with
  | ⟨0, _⟩ => show win0_5.index t (0 : Fin 2) * 1 + 1 * (y 0).val = (y 0).val; rw [e0]; omega
  | ⟨1, _⟩ => show win0_5.index t (1 : Fin 2) * 4096 + 1 * (y 1).val = (y 1).val; rw [e1]; omega

/-- The read-out weight's block is the whole array at every point. -/
theorem read_lw (t : Fin cfg0.N) (A : Mat 1024 2048) :
    ((cfg0.win 6).blk t).view.read (Elt Ideal) A = A := by
  funext y
  show A (((cfg0.win 6).blk t).view.emb y) = A y
  refine congrArg A (funext fun a => Fin.ext ?_)
  obtain ⟨e0, e1⟩ := idx_w6 t
  match a with
  | ⟨0, _⟩ => show win0_6.index t (0 : Fin 2) * 1024 + 1 * (y 0).val = (y 0).val; rw [e0]; omega
  | ⟨1, _⟩ => show win0_6.index t (1 : Fin 2) * 2048 + 1 * (y 1).val = (y 1).val; rw [e1]; omega

/-- The read-out bias's block is the whole row at every point. -/
theorem read_lb (t : Fin cfg0.N) (A : Mat 1 1024) :
    ((cfg0.win 7).blk t).view.read (Elt Ideal) A = A := by
  funext y
  show A (((cfg0.win 7).blk t).view.emb y) = A y
  refine congrArg A (funext fun a => Fin.ext ?_)
  obtain ⟨e0, e1⟩ := idx_w7 t
  match a with
  | ⟨0, _⟩ => show win0_7.index t (0 : Fin 2) * 1 + 1 * (y 0).val = (y 0).val; rw [e0]; omega
  | ⟨1, _⟩ => show win0_7.index t (1 : Fin 2) * 1024 + 1 * (y 1).val = (y 1).val; rw [e1]; omega

/-- Point `t`'s block of the read-out's array is its tile `t`. -/
theorem read_o (t : Fin cfg0.N) (A : Mat 4096 1024) :
    ((cfg0.win 8).blk t).view.read (Elt Ideal) A = rowsOf t.val (lt32 t) A := by
  funext y
  show A (((cfg0.win 8).blk t).view.emb y) = A _
  refine congrArg A (funext fun a => Fin.ext ?_)
  obtain ⟨e0, e1⟩ := idx_w8 t
  match a with
  | ⟨0, _⟩ => show win0_8.index t (0 : Fin 2) * 128 + 1 * (y 0).val = t.val * 128 + (y 0).val; rw [e0]; omega
  | ⟨1, _⟩ => show win0_8.index t (1 : Fin 2) * 1024 + 1 * (y 1).val = (y 1).val; rw [e1]; omega

/-- Point `t`'s block of the new state's array is its tile `t`. -/
theorem read_hn (t : Fin cfg0.N) (A : Mat 4096 2048) :
    ((cfg0.win 9).blk t).view.read (Elt Ideal) A = rowsOf t.val (lt32 t) A := by
  funext y
  show A (((cfg0.win 9).blk t).view.emb y) = A _
  refine congrArg A (funext fun a => Fin.ext ?_)
  obtain ⟨e0, e1⟩ := idx_w9 t
  match a with
  | ⟨0, _⟩ => show win0_9.index t (0 : Fin 2) * 128 + 1 * (y 0).val = t.val * 128 + (y 0).val; rw [e0]; omega
  | ⟨1, _⟩ => show win0_9.index t (1 : Fin 2) * 2048 + 1 * (y 1).val = (y 1).val; rw [e1]; omega

/-- Point `t`'s block of the new gate's array is its tile `t`. -/
theorem read_gn (t : Fin cfg0.N) (A : Mat 4096 2048) :
    ((cfg0.win 10).blk t).view.read (Elt Ideal) A = rowsOf t.val (lt32 t) A := by
  funext y
  show A (((cfg0.win 10).blk t).view.emb y) = A _
  refine congrArg A (funext fun a => Fin.ext ?_)
  obtain ⟨e0, e1⟩ := idx_w10 t
  match a with
  | ⟨0, _⟩ => show win0_10.index t (0 : Fin 2) * 128 + 1 * (y 0).val = t.val * 128 + (y 0).val; rw [e0]; omega
  | ⟨1, _⟩ => show win0_10.index t (1 : Fin 2) * 2048 + 1 * (y 1).val = (y 1).val; rw [e1]; omega

/-! ## What the body is given at point `t` -/

section Given
variable (c : Dev nD) (t : Fin cfg0.N)

theorem given_x : iblk m c 0 t = rowsOf t.val (lt32 t) (n := 1024) (m ((c : Thread nD τ).loc main_arg0)) :=
  (read_x t (V m c main_arg0)).trans (congrArg (rowsOf t.val (lt32 t) (n := 1024)) (V_main_arg0 m c))
theorem given_h : iblk m c 1 t = rowsOf t.val (lt32 t) (n := 2048) (m ((c : Thread nD τ).loc main_arg1)) :=
  (read_h t (V m c main_arg1)).trans (congrArg (rowsOf t.val (lt32 t) (n := 2048)) (V_main_arg1 m c))
theorem given_g : iblk m c 2 t = rowsOf t.val (lt32 t) (n := 2048) (m ((c : Thread nD τ).loc main_arg2)) :=
  (read_g t (V m c main_arg2)).trans (congrArg (rowsOf t.val (lt32 t) (n := 2048)) (V_main_arg2 m c))
theorem given_wx : @Eq (Mat 1024 4096) (iblk m c 3 t) (V m c main_v1) := read_wx t (V m c main_v1)
theorem given_wh : @Eq (Mat 2048 4096) (iblk m c 4 t) (V m c main_v3) := read_wh t (V m c main_v3)
theorem given_b : @Eq (Mat 1 4096) (iblk m c 5 t) (V m c main_v5) := read_b t (V m c main_v5)
theorem given_lw : @Eq (Mat 1024 2048) (iblk m c 6 t) (V m c main_v6) := read_lw t (V m c main_v6)
theorem given_lb : @Eq (Mat 1 1024) (iblk m c 7 t) (V m c main_v7) := read_lb t (V m c main_v7)

end Given

/-! ## The cell's three arrays of the arguments as launched -/

/-- The read-out. -/
abbrev outArr (c : Dev nD) : Mat 4096 1024 :=
  outNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10))
/-- The new hidden state. -/
abbrev hidArr (c : Dev nD) : Mat 4096 2048 :=
  hidNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- The new gate. -/
abbrev gateArr (c : Dev nD) : Mat 4096 2048 :=
  gateNew (m ((c : Thread nD τ).loc main_arg0)) (m ((c : Thread nD τ).loc main_arg1)) (m ((c : Thread nD τ).loc main_arg6)) (m ((c : Thread nD τ).loc main_arg7)) (m ((c : Thread nD τ).loc main_arg8))

/-! ## What point `t` writes back is tile `t` of the cell's array -/

theorem flushed_out (c : Dev nD) (t : Fin cfg0.N) :
    (dats m 0 c).flushed 8 t = ((cfg0.win 8).blk t).view.read (Elt Ideal) (outArr m c) := by
  rw [Value.flushed8, read_o t (outArr m c)]
  unfold out0_8
  rw [View.canon_unit_zero hz]
  simp only [View.ld_unit_zero (S := S128x1024) hz, View.ld_unit_zero (S := S128x2048) hz,
    View.ld_unit_zero (S := S1024x4096) hz, View.ld_unit_zero (S := S2048x4096) hz, View.ld_unit_zero (S := S1x4096) hz,
    View.ld_unit_zero (S := S1024x2048) hz, View.ld_unit_zero (S := S1x1024) hz]
  rw [given_x, given_h, given_g, given_wx, given_wh, given_b, given_lw, given_lb]
  funext y
  obtain ⟨p, q, rfl⟩ : ∃ (p : Fin 128) (q : Fin 1024), y = ix2 p q := ⟨y 0, y 1, eq_ix2 y⟩
  exact out_tile (stacked m c) (m ((c : Thread nD τ).loc main_arg0)) (m ((c : Thread nD τ).loc main_arg1)) (m ((c : Thread nD τ).loc main_arg2)) t.val (lt32 t) p q

theorem flushed_hid (c : Dev nD) (t : Fin cfg0.N) :
    (dats m 0 c).flushed 9 t = ((cfg0.win 9).blk t).view.read (Elt Ideal) (hidArr m c) := by
  rw [Value.flushed9, read_hn t (hidArr m c)]
  unfold out0_9
  rw [View.canon_unit_zero hz]
  simp only [View.ld_unit_zero (S := S128x1024) hz, View.ld_unit_zero (S := S128x2048) hz,
    View.ld_unit_zero (S := S1024x4096) hz, View.ld_unit_zero (S := S2048x4096) hz, View.ld_unit_zero (S := S1x4096) hz,
    View.ld_unit_zero (S := S1024x2048) hz, View.ld_unit_zero (S := S1x1024) hz]
  rw [given_x, given_h, given_g, given_wx, given_wh, given_b]
  funext y
  obtain ⟨p, j, rfl⟩ : ∃ (p : Fin 128) (j : Fin 2048), y = ix2 p j := ⟨y 0, y 1, eq_ix2 y⟩
  exact hid_tile (stacked m c) (m ((c : Thread nD τ).loc main_arg0)) (m ((c : Thread nD τ).loc main_arg1)) (m ((c : Thread nD τ).loc main_arg2)) t.val (lt32 t) p j

theorem flushed_gate (c : Dev nD) (t : Fin cfg0.N) :
    (dats m 0 c).flushed 10 t = ((cfg0.win 10).blk t).view.read (Elt Ideal) (gateArr m c) := by
  rw [Value.flushed10, read_gn t (gateArr m c)]
  unfold out0_10
  rw [View.canon_unit_zero hz]
  simp only [View.ld_unit_zero (S := S128x1024) hz, View.ld_unit_zero (S := S128x2048) hz,
    View.ld_unit_zero (S := S1024x4096) hz, View.ld_unit_zero (S := S2048x4096) hz, View.ld_unit_zero (S := S1x4096) hz,
    View.ld_unit_zero (S := S1024x2048) hz, View.ld_unit_zero (S := S1x1024) hz]
  rw [given_x, given_h, given_wx, given_wh, given_b]
  funext y
  obtain ⟨p, j, rfl⟩ : ∃ (p : Fin 128) (j : Fin 2048), y = ix2 p j := ⟨y 0, y 1, eq_ix2 y⟩
  exact gate_tile (stacked m c) (m ((c : Thread nD τ).loc main_arg0)) (m ((c : Thread nD τ).loc main_arg1)) t.val (lt32 t) p j

/-! ## The blocks tile the arrays -/

/-- An entry of the array is in point `t`'s block of this output exactly when its row is one of tile `t`'s. -/
theorem mem_rows8 (t : Fin cfg0.N) (i : S4096x1024.Idx) :
    i ∈ ((cfg0.win 8).blk t).view.set ↔ t.val * 128 ≤ (i 0).val ∧ (i 0).val < t.val * 128 + 128 := by
  have h : i ∈ ((cfg0.win 8).blk t).view.set ↔ ∀ a : Fin 2, win0_8.index t a * S128x1024.size a ≤ (i a).val
      ∧ (i a).val < win0_8.index t a * S128x1024.size a + S128x1024.size a := by
    show i ∈ ((View.whole main_v8_0).slice (win0_8.rect t)).set ↔ _
    rw [View.set_slice_whole, Rect.mem_set_unit]
    exact Iff.rfl
  rw [h]
  obtain ⟨e0, e1⟩ := idx_w8 t
  have hi1 : (i 1).val < 1024 := (i 1).isLt
  constructor
  · intro hi
    have b0 : win0_8.index t (0 : Fin 2) * 128 ≤ (i 0).val ∧ (i 0).val < win0_8.index t (0 : Fin 2) * 128 + 128 := hi 0
    omega
  · intro hi a
    match a with
    | ⟨0, _⟩ => show win0_8.index t (0 : Fin 2) * 128 ≤ (i 0).val ∧ (i 0).val < win0_8.index t (0 : Fin 2) * 128 + 128; omega
    | ⟨1, _⟩ => show win0_8.index t (1 : Fin 2) * 1024 ≤ (i 1).val ∧ (i 1).val < win0_8.index t (1 : Fin 2) * 1024 + 1024; omega

/-- Every entry is in the block of the point that holds its row: point (row / 128). -/
theorem cover8 (i : S4096x1024.Idx) :
    ∃ t : Fin cfg0.N, (cfg0.win 8).flush t = true ∧ i ∈ ((cfg0.win 8).blk t).view.set := by
  have hi0 : (i 0).val < 4096 := (i 0).isLt
  have hN : cfg0.N = 32 := N_0
  refine ⟨⟨(i 0).val / 128, by rw [hN]; omega⟩, flush0_8 _, ?_⟩
  rw [mem_rows8]
  show (i 0).val / 128 * 128 ≤ (i 0).val ∧ (i 0).val < (i 0).val / 128 * 128 + 128
  omega

/-- An entry of the array is in point `t`'s block of this output exactly when its row is one of tile `t`'s. -/
theorem mem_rows9 (t : Fin cfg0.N) (i : S4096x2048.Idx) :
    i ∈ ((cfg0.win 9).blk t).view.set ↔ t.val * 128 ≤ (i 0).val ∧ (i 0).val < t.val * 128 + 128 := by
  have h : i ∈ ((cfg0.win 9).blk t).view.set ↔ ∀ a : Fin 2, win0_9.index t a * S128x2048.size a ≤ (i a).val
      ∧ (i a).val < win0_9.index t a * S128x2048.size a + S128x2048.size a := by
    show i ∈ ((View.whole main_v8_1).slice (win0_9.rect t)).set ↔ _
    rw [View.set_slice_whole, Rect.mem_set_unit]
    exact Iff.rfl
  rw [h]
  obtain ⟨e0, e1⟩ := idx_w9 t
  have hi1 : (i 1).val < 2048 := (i 1).isLt
  constructor
  · intro hi
    have b0 : win0_9.index t (0 : Fin 2) * 128 ≤ (i 0).val ∧ (i 0).val < win0_9.index t (0 : Fin 2) * 128 + 128 := hi 0
    omega
  · intro hi a
    match a with
    | ⟨0, _⟩ => show win0_9.index t (0 : Fin 2) * 128 ≤ (i 0).val ∧ (i 0).val < win0_9.index t (0 : Fin 2) * 128 + 128; omega
    | ⟨1, _⟩ => show win0_9.index t (1 : Fin 2) * 2048 ≤ (i 1).val ∧ (i 1).val < win0_9.index t (1 : Fin 2) * 2048 + 2048; omega

/-- Every entry is in the block of the point that holds its row: point (row / 128). -/
theorem cover9 (i : S4096x2048.Idx) :
    ∃ t : Fin cfg0.N, (cfg0.win 9).flush t = true ∧ i ∈ ((cfg0.win 9).blk t).view.set := by
  have hi0 : (i 0).val < 4096 := (i 0).isLt
  have hN : cfg0.N = 32 := N_0
  refine ⟨⟨(i 0).val / 128, by rw [hN]; omega⟩, flush0_9 _, ?_⟩
  rw [mem_rows9]
  show (i 0).val / 128 * 128 ≤ (i 0).val ∧ (i 0).val < (i 0).val / 128 * 128 + 128
  omega

/-- An entry of the array is in point `t`'s block of this output exactly when its row is one of tile `t`'s. -/
theorem mem_rows10 (t : Fin cfg0.N) (i : S4096x2048.Idx) :
    i ∈ ((cfg0.win 10).blk t).view.set ↔ t.val * 128 ≤ (i 0).val ∧ (i 0).val < t.val * 128 + 128 := by
  have h : i ∈ ((cfg0.win 10).blk t).view.set ↔ ∀ a : Fin 2, win0_10.index t a * S128x2048.size a ≤ (i a).val
      ∧ (i a).val < win0_10.index t a * S128x2048.size a + S128x2048.size a := by
    show i ∈ ((View.whole main_v8_2).slice (win0_10.rect t)).set ↔ _
    rw [View.set_slice_whole, Rect.mem_set_unit]
    exact Iff.rfl
  rw [h]
  obtain ⟨e0, e1⟩ := idx_w10 t
  have hi1 : (i 1).val < 2048 := (i 1).isLt
  constructor
  · intro hi
    have b0 : win0_10.index t (0 : Fin 2) * 128 ≤ (i 0).val ∧ (i 0).val < win0_10.index t (0 : Fin 2) * 128 + 128 := hi 0
    omega
  · intro hi a
    match a with
    | ⟨0, _⟩ => show win0_10.index t (0 : Fin 2) * 128 ≤ (i 0).val ∧ (i 0).val < win0_10.index t (0 : Fin 2) * 128 + 128; omega
    | ⟨1, _⟩ => show win0_10.index t (1 : Fin 2) * 2048 ≤ (i 1).val ∧ (i 1).val < win0_10.index t (1 : Fin 2) * 2048 + 2048; omega

/-- Every entry is in the block of the point that holds its row: point (row / 128). -/
theorem cover10 (i : S4096x2048.Idx) :
    ∃ t : Fin cfg0.N, (cfg0.win 10).flush t = true ∧ i ∈ ((cfg0.win 10).blk t).view.set := by
  have hi0 : (i 0).val < 4096 := (i 0).isLt
  have hN : cfg0.N = 32 := N_0
  refine ⟨⟨(i 0).val / 128, by rw [hN]; omega⟩, flush0_10 _, ?_⟩
  rw [mem_rows10]
  show (i 0).val / 128 * 128 ≤ (i 0).val ∧ (i 0).val < (i 0).val / 128 * 128 + 128
  omega

/-! ## The arrays after the run -/

theorem final_out (c : Dev nD) : (dats m 0 c).arrAt 8 cfg0.N = outArr m c :=
  (dats m 0 c).arrAt_eq_of_cover 8 (outArr m c) (fun t _ => flushed_out m c t) cover8

theorem final_hid (c : Dev nD) : (dats m 0 c).arrAt 9 cfg0.N = hidArr m c :=
  (dats m 0 c).arrAt_eq_of_cover 9 (hidArr m c) (fun t _ => flushed_hid m c t) cover9

theorem final_gate (c : Dev nD) : (dats m 0 c).arrAt 10 cfg0.N = gateArr m c :=
  (dats m 0 c).arrAt_eq_of_cover 10 (gateArr m c) (fun t _ => flushed_gate m c t) cover10

end Cert.KernelIdeal.Whole

end
-- ==== Proof.lean ====
/-
  A gated recurrent cell, one step, on a batch of 4096 rows: the kernel and its reference compute the same three arrays
  on the extended reals.

  The cell (RnnSpec): with x : [4096, 1024], the state h and the old gate g : [4096, 2048], and per branch an input
  weight, a recurrent weight and a bias,

      gateNew = tanh (x wgx + h wgh + bg)
      hidNew  = g * tanh (x wxh + h whh + bh) + (1 - g) * h
      outNew  = hidNew lw^T + lb .

  The reference computes these three arrays one operation after another (RefIsSpec). The kernel stacks the two branches'
  weights and biases side by side, walks the batch in 32 tiles of 128 rows, forms on each tile both branches'
  pre-activations in one [128, 4096] product, takes the left half for the gate and the right half for the candidate, and
  contracts the new state with lw along lw's own hidden axis instead of transposing it (TileValues, Stacking,
  TileOfArray, HostArrays); each tile's results are written to the tile's rows, and the tiles cover the batch
  (WholeArrays). Both sides group their sums and products the same way, term by term: nothing is distributed or
  cancelled, a change of float format is the identity, and tanh is one function of an extended real on both sides, so the
  equality holds at every extended real and the finiteness of the inputs is not used.

  The kernel's idealization rewrote no operation, so there is nothing to preserve beyond the program's own text.
-/
import proofs.«174306_j52493090291841_2_alg».proof.Defs
import proofs.«174306_j52493090291841_2_alg».proof.Proof.Gen.Kernel
import proofs.«174306_j52493090291841_2_alg».proof.Proof.Gen.Kernel.Frame
import proofs.«174306_j52493090291841_2_alg».proof.Proof.Gen.KernelIdeal
import proofs.«174306_j52493090291841_2_alg».proof.Proof.Gen.KernelIdeal.Frame
import proofs.«174306_j52493090291841_2_alg».proof.Proof.Gen.KernelIdeal.Value
import proofs.«174306_j52493090291841_2_alg».proof.Proof.Gen.ReferenceIdeal
import proofs.«174306_j52493090291841_2_alg».proof.Proof.Gen.ReferenceIdeal.Run
import proofs.«174306_j52493090291841_2_alg».proof.Proof.Gen.ReferenceIdeal.Read
import proofs.«174306_j52493090291841_2_alg».proof.Proof.Gen.Pre_finite_inputs
import proofs.«174306_j52493090291841_2_alg».proof.Proof.RefIsSpec
import proofs.«174306_j52493090291841_2_alg».proof.Proof.WholeArrays

noncomputable section

namespace Cert.Proof

open Idealize.ShloMosaic Idealize.ShloMosaic.TcCoe Idealize.SL.Sem

/-- The kernel as printed runs to the end, faults nowhere and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with what it says of the results dropped. -/
theorem frame_ri : Cert.frame_ReferenceIdeal := fun m ρ _ =>
  (θ_run Cert.ReferenceIdeal.defs _ _).mono (fun _ h c => (h c).2.2.2)
    (Cert.ReferenceIdeal.Value.run (F := Ideal) m ρ)

/-- Nothing was rewritten, so nothing is to be preserved. -/
theorem preserves : Cert.preserves_Kernel_KernelIdeal := trivial

/-- From arguments that agree, the kernel's three result arrays and the reference's are the cell's read-out, new state
    and new gate of those arguments. -/
theorem algebraic : Cert.algebraic_KernelIdeal_ReferenceIdeal := by
  intro m ρ m' ρ' _ hagree
  refine ⟨fun c => Cert.KernelIdeal.Whole.outArr m c, fun c => Cert.KernelIdeal.Whole.hidArr m c,
    fun c => Cert.KernelIdeal.Whole.gateArr m c, ?_, ?_⟩
  · exact (θ_run Cert.KernelIdeal.defs _ _).mono
      (fun r h c => ⟨(h c).1.trans (Cert.KernelIdeal.Whole.final_out m c),
        (h c).2.1.trans (Cert.KernelIdeal.Whole.final_hid m c),
        (h c).2.2.1.trans (Cert.KernelIdeal.Whole.final_gate m c), (h c).2.2.2⟩)
      (Cert.KernelIdeal.Value.run_blocks m ρ)
  · refine (θ_run Cert.ReferenceIdeal.defs _ _).mono (fun r h c => ?_)
      (Cert.ReferenceIdeal.Value.run (F := Ideal) m' ρ')
    obtain ⟨a0, a1, a2, a3, a4, a5, a6, a7, a8, a9, a10⟩ := hagree c
    refine ⟨?_, ?_, ?_, (h c).2.2.2⟩
    · rw [(h c).1, Cert.ReferenceIdeal.Read.val_main_v23_eq, Cert.RefIsSpec.out_eq, a0, a1, a2, a3, a4, a5, a9, a10]
    · rw [(h c).2.1, Cert.ReferenceIdeal.Read.val_main_v18_eq, Cert.RefIsSpec.hid_eq, a0, a1, a2, a3, a4, a5]
    · rw [(h c).2.2.1, Cert.ReferenceIdeal.Read.val_main_v6_eq, Cert.RefIsSpec.gate_eq, a0, a1, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
